-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1200000 : Shape := ⟨2, ![2, 1200000]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1200000 32) (main_arg2 : FVec F S256x64 .f32) (main_arg3 : FVec F S64 .f32) (main_arg4 : FVec F S64x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x256 : Shape := ⟨2, ![100000, 256]⟩
abbrev S2x1200000 : Shape := ⟨2, ![2, 1200000]⟩
abbrev S256x64 : Shape := ⟨2, ![256, 64]⟩
abbrev S64 : Shape := ⟨1, ![64]⟩
abbrev S64x64 : Shape := ⟨2, ![64, 64]⟩
abbrev S100000x64 : Shape := ⟨2, ![100000, 64]⟩
abbrev S5000x256 : Shape := ⟨2, ![5000, 256]⟩
abbrev S5000x64 : Shape := ⟨2, ![5000, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 69
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S1x1200000, .i32⟩
  | .hbm, ⟨12, _⟩ => ⟨S1200000, .i32⟩
  | .hbm, ⟨13, _⟩ => ⟨S1300000, .i32⟩
  | .hbm, ⟨14, _⟩ => ⟨S_, .f32⟩
  | .hbm, ⟨15, _⟩ => ⟨S1300000, .f32⟩
  | .hbm, ⟨16, _⟩ => ⟨S_, .f32⟩
  | .hbm, ⟨17, _⟩ => ⟨S100000, .f32⟩
  | .hbm, ⟨18, _⟩ => ⟨S1300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S1x64, .f32⟩
  | .hbm, ⟨68, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  dot_S5000x256_S256x64_S5000x64_1_0_0_1_n_n_wf : DotDims.WF S5000x256 S256x64 S5000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1200000 : Shape := ⟨2, ![2, 1200000]⟩
abbrev S256x64 : Shape := ⟨2, ![256, 64]⟩
abbrev S64 : Shape := ⟨1, ![64]⟩
abbrev S64x64 : Shape := ⟨2, ![64, 64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S100000x64 : Shape := ⟨2, ![100000, 64]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1200000, .i32⟩
  | .hbm, ⟨8, _⟩ => ⟨S1200000, .i32⟩
  | .hbm, ⟨9, _⟩ => ⟨S1300000, .i32⟩
  | .hbm, ⟨10, _⟩ => ⟨S1x1200000, .i32⟩
  | .hbm, ⟨11, _⟩ => ⟨S1200000, .i32⟩
  | .hbm, ⟨12, _⟩ => ⟨S1300000, .i32⟩
  | .hbm, ⟨13, _⟩ => ⟨S100000x64, .f32⟩
  | .hbm, ⟨14, _⟩ => ⟨S_, .f32⟩
  | .hbm, ⟨15, _⟩ => ⟨S1300000, .f32⟩
  | .hbm, ⟨16, _⟩ => ⟨S_, .f32⟩
  | .hbm, ⟨17, _⟩ => ⟨S100000, .f32⟩
  | .hbm, ⟨18, _⟩ => ⟨S1300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Aggregate.lean ====
/-
  The graph aggregation both programs share, as one function of the projected features and the edge list.

  With `n = 100000` nodes and `E = 1200000` edges given as two rows of node numbers (`e`: row 0 the sources, row 1 the
  targets), a self-loop is appended for every node: `src` and `dst` have `E + n` entries. The degree of node `i` is the
  number of entries of `dst` equal to `i` (a scatter-add of ones into zeros), `dis i` is `deg i ^ (-1/2)` where the degree is
  positive and `0` elsewhere, the weight of entry `j` is `dis (src j) · dis (dst j)`, and

      agg h e (i, :) = sum over the entries j with dst j = i of  h (src j, :) · dis (src j) · dis (dst j).

  A negative node number is first shifted by `n` before it is used to read a row (`wrap`), as jnp indexing does; the
  scatters take `dst` as it is. Nothing here depends on what these operations do with a node number out of range: both
  programs apply this same function, the kernel program to its first call's output and the reference to its own
  product `x · W1`, and the proof only ever needs that equal features give equal aggregates.

  `result_eq`: the reference's result term is `relu (agg (x · W1) e + b1) · W2 + b2` spelt with this function.
-/
import proofs.«123873_j25821343383965_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The source node of every entry: row 0 of the edge list, then the nodes themselves (the self-loops). -/
def src (e : (⟨S2x1200000, .i32⟩ : BufTy).Contents (Elt F)) : (⟨S1300000, .i32⟩ : BufTy).Contents (Elt F) :=
  concatenate S1300000 0 [⟨S1200000, (shapeCast _ (extractStridedSlice S1x1200000 ![0, 0] e slices_S2x1200000_S1x1200000_0_0) shapeCasts_S1x1200000_S1200000)⟩, ⟨S100000, (iotaInDim S100000 32 0)⟩] concatenates_S1200000_S100000_S1300000_d0

/-- The target node of every entry: row 1 of the edge list, then the nodes themselves. -/
def dst (e : (⟨S2x1200000, .i32⟩ : BufTy).Contents (Elt F)) : (⟨S1300000, .i32⟩ : BufTy).Contents (Elt F) :=
  concatenate S1300000 0 [⟨S1200000, (shapeCast _ (extractStridedSlice S1x1200000 ![1, 0] e slices_S2x1200000_S1x1200000_1_0) shapeCasts_S1x1200000_S1200000)⟩, ⟨S100000, (iotaInDim S100000 32 0)⟩] concatenates_S1200000_S100000_S1300000_d0

/-- A node number used to read a row: a negative one is shifted by the number of nodes. -/
def wrap (v : (⟨S1300000, .i32⟩ : BufTy).Contents (Elt F)) : (⟨S1300000, .i32⟩ : BufTy).Contents (Elt F) :=
  select (cmpi .slt v (broadcastInDim S1300000 ![] bcast_S_S1300000 (constantI S_ 32 0#32))) (addi v (broadcastInDim S1300000 ![] bcast_S_S1300000 (constantI S_ 32 100000#32))) v

/-- A list of node numbers as a one-column table of start indices. -/
def col {ε : EltTy} (v : (⟨S1300000, ε⟩ : BufTy).Contents (Elt F)) : (⟨S1300000x1, ε⟩ : BufTy).Contents (Elt F) :=
  broadcastInDim S1300000x1 ![0] bcast_S1300000_S1300000x1_0 v

/-- The degree of every node: ones added into zeros at the entries' targets. -/
def deg (e : (⟨S2x1200000, .i32⟩ : BufTy).Contents (Elt F)) : (⟨S100000, .f32⟩ : BufTy).Contents (Elt F) :=
  Host.scatterAdd scatter_S100000_S1300000x1_S1300000_n_0_0_1 (broadcastInDim S100000 ![] bcast_S_S100000 (constant S_ .f32 0x00000000#32)) (col (dst e)) (broadcastInDim S1300000 ![] bcast_S_S1300000 (constant S_ .f32 0x3F800000#32))

/-- `deg ^ (-1/2)` where the degree is positive (the root taken of `max deg 1`), zero elsewhere. -/
def dis (e : (⟨S2x1200000, .i32⟩ : BufTy).Contents (Elt F)) : (⟨S100000, .f32⟩ : BufTy).Contents (Elt F) :=
  select (cmpf (F := F) .ogt (deg e) (broadcastInDim S100000 ![] bcast_S_S100000 (constant S_ .f32 0x00000000#32))) (Host.rsqrt (maximumf (deg e) (broadcastInDim S100000 ![] bcast_S_S100000 (constant S_ .f32 0x3F800000#32)))) (broadcastInDim S100000 ![] bcast_S_S100000 (id (constant S_ .f32 0x00000000#32)))

/-- The weight of every entry: `dis` at its source times `dis` at its target. -/
def weight (e : (⟨S2x1200000, .i32⟩ : BufTy).Contents (Elt F)) : (⟨S1300000, .f32⟩ : BufTy).Contents (Elt F) :=
  mulf (Host.gather gather_S100000_S1300000x1_S1300000_n_0_n_n_0_1_1 (dis e) (col (wrap (src e)))) (Host.gather gather_S100000_S1300000x1_S1300000_n_0_n_n_0_1_1 (dis e) (col (wrap (dst e))))

/-- The aggregate: every entry's source row of `h`, scaled by the entry's weight, added into zeros at the entry's target row. -/
def agg (h : (⟨S100000x64, .f32⟩ : BufTy).Contents (Elt F)) (e : (⟨S2x1200000, .i32⟩ : BufTy).Contents (Elt F)) : (⟨S100000x64, .f32⟩ : BufTy).Contents (Elt F) :=
  Host.scatterAdd scatter_S100000x64_S1300000x1_S1300000x64_1_0_0_1 (broadcastInDim S100000x64 ![] bcast_S_S100000x64 (constant S_ .f32 0x00000000#32)) (col (dst e))
    (mulf (Host.gather gather_S100000x64_S1300000x1_S1300000x64_1_0_n_n_0_1_164 h (col (wrap (src e)))) (broadcastInDim S1300000x64 ![0, 1] bcast_S1300000x1_S1300000x64_0_1 (col (weight e))))

/-- A bias vector repeated over the rows. -/
def biasRows (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The output layer on an aggregate `a`: add the first bias to every row, take the maximum with the floor, multiply
    by `W2`, add the second bias to every row. -/
def layer (a : (⟨S100000x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) : (⟨S100000x64, .f32⟩ : BufTy).Contents (Elt F) :=
  addf (Host.dotGeneral dot_S100000x64_S64x64_S100000x64_1_0_0_1_n_n none
      (maximumf (addf a (biasRows b1)) (broadcastInDim S100000x64 ![] bcast_S_S100000x64 (constant S_ .f32 0x00000000#32))) w2) (biasRows b2)

/-- The reference's first product, `x · W1` on the host. -/
def product (x : (⟨S100000x256, .f32⟩ : BufTy).Contents (Elt F)) (w1 : (⟨S256x64, .f32⟩ : BufTy).Contents (Elt F)) : (⟨S100000x64, .f32⟩ : BufTy).Contents (Elt F) :=
  Host.dotGeneral dot_S100000x256_S256x64_S100000x64_1_0_0_1_n_n none x w1

/-- The reference's whole result from its arguments: `relu (agg (x · W1) e + b1) · W2 + b2`. -/
def result (x : (⟨S100000x256, .f32⟩ : BufTy).Contents (Elt F)) (e : (⟨S2x1200000, .i32⟩ : BufTy).Contents (Elt F))
    (w1 : (⟨S256x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F)) : (⟨S100000x64, .f32⟩ : BufTy).Contents (Elt F) :=
  layer (agg (product x w1) e) b1 w2 b2

/-- The reference's run ends with its result buffer at `result` of the argument arrays: the generated term is this one,
    with the shared pieces named. -/
theorem result_eq (m : (ℓ : Loc nD τ sig) → Buf (Elt F) ℓ) (c : Dev nD) :
    ValueP.res_main_v53 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.ReferenceIdeal.Hand

end
-- ==== Proof.KernelRun.lean ====
/-
  The idealized kernel program's run, with its result named.

  The program is two pipelined calls with a stretch of host operations between them. Its generated frame certificate
  walks the program as five segments (call, three host stretches, call) and names the buffer contents at every
  boundary: `W0` at launch, `W1` after the first call, `W2 … W4` after each host stretch, `W5` after the second call.
  The frame claim keeps, of the last boundary, only the argument arrays. Here the same launch is closed with one more
  reading of the last boundary: the result buffer `main_v48` ends at `W5`'s contents for it, which are the second
  call's output array after all its write-backs.
-/
import proofs.«123873_j25821343383965_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second call's output window's array. -/
theorem W5_result (c : Dev nD) :
    W5 m ρ c (Proc.devRef .tc main_v48) = (dat1 (V4 m ρ) c).arrAt 4 cfg1.N :=
  W5_arr m ρ c 4

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v48) = W5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v48 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Result

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Spec.lean ====
/-
  The two dense layers of the network as functions of whole arrays of extended reals, index by index.

  `proj a w` is the matrix product: entry `(p, q)` is the sum over `k` of `a (p, k) · w (k, q)`.
  `dense z a r1 w r2` is the output layer applied to an aggregate `a`: entry `(p, q)` is

      (sum over k of  max (a (p, k) + r1 (0, k)) z · w (k, q))  +  r2 (0, q),

  where `r1` and `r2` are the two bias vectors laid out as single rows and `z` is the floor of the rectifier (the
  number the word `0x00000000` denotes; it is carried as a parameter and never evaluated, since both programs spell
  it with the same word). A row block of either function depends only on the same row block of `a`: that is what
  lets a kernel compute it tile by tile.
-/
import Idealize.ShloMosaic.PureOps.Ideal.Laws
import Idealize.ShloMosaic.Lib.ValueIdx

noncomputable section

namespace Cert.Gcn

open Idealize.ShloMosaic Idealize.ShloMosaic.ValueIdx

/-- The matrix product of an `M × K` by a `K × N` array. -/
def proj {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (n0 := M) (n1 := K) (i 0) k) * w (ix2 (n0 := K) (n1 := N) k (i 1))

theorem proj_apply {M K N : Nat} (a : (⟨2, ![M, K]⟩ : Shape).Idx → EReal) (w : (⟨2, ![K, N]⟩ : Shape).Idx → EReal)
    (p : Fin M) (q : Fin N) : proj a w (ix2 p q) = ∑ k : Fin K, a (ix2 p k) * w (ix2 k q) := rfl

/-- The output layer: bias, rectifier with floor `z`, matrix product, bias. -/
def dense {M K N : Nat} (z : EReal) (a : (⟨2, ![M, K]⟩ : Shape).Idx → EReal) (r1 : (⟨2, ![1, K]⟩ : Shape).Idx → EReal)
    (w : (⟨2, ![K, N]⟩ : Shape).Idx → EReal) (r2 : (⟨2, ![1, N]⟩ : Shape).Idx → EReal) : (⟨2, ![M, N]⟩ : Shape).Idx → EReal :=
  fun i => (∑ k : Fin K, max (a (ix2 (n0 := M) (n1 := K) (i 0) k) + r1 (ix2 (0 : Fin 1) k)) z * w (ix2 (n0 := K) (n1 := N) k (i 1)))
    + r2 (ix2 (n0 := 1) (n1 := N) (0 : Fin 1) (i 1))

theorem dense_apply {M K N : Nat} (z : EReal) (a : (⟨2, ![M, K]⟩ : Shape).Idx → EReal) (r1 : (⟨2, ![1, K]⟩ : Shape).Idx → EReal)
    (w : (⟨2, ![K, N]⟩ : Shape).Idx → EReal) (r2 : (⟨2, ![1, N]⟩ : Shape).Idx → EReal) (p : Fin M) (q : Fin N) :
    dense z a r1 w r2 (ix2 p q) = (∑ k : Fin K, max (a (ix2 p k) + r1 (ix2 (0 : Fin 1) k)) z * w (ix2 k q)) + r2 (ix2 (0 : Fin 1) q) := rfl

end Cert.Gcn

end
-- ==== Proof.Region0.lean ====
/-
  The first call's output array is the product `x · W1`.

  The call walks the 100000 rows of `x` in 20 tiles of 5000. At tile `t` the body loads rows `5000 t … 5000 t + 4999`
  of `x` and all of `W1`, multiplies them into a zero accumulator, and stores the 5000 × 64 product, which is written
  back as rows `5000 t … 5000 t + 4999` of the output. Entry `(r, q)` of a tile's product is the sum over `k` of
  `x (5000 t + r, k) · W1 (k, q)`: the same entry of the whole product. The 20 tiles cover every row (row `r` lies in
  tile `r / 5000`), so after the last write-back the array is the whole product.

  Everything is stated at the buffer contents `V` the call finds on entry.
-/
import proofs.«123873_j25821343383965_1_alg».proof.Proof.Gen.KernelIdeal.Frame
import proofs.«123873_j25821343383965_1_alg».proof.Proof.LibDotSum
import proofs.«123873_j25821343383965_1_alg».proof.Proof.Spec
import Idealize.ShloMosaic.Lib.Pipeline.Value
import Idealize.ShloMosaic.Lib.ValueIdx
import Idealize.ShloMosaic.PureOps.Ideal.Laws

noncomputable section

namespace Cert.KernelIdeal.Project

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)`: the sum over `k` of the loaded tile at `(p, k)` times the loaded weights at
    `(k, q)` (the narrowing to the multiplier's input format is the identity on extended reals). -/
theorem pay_apply (x0 : Vec Ideal S5000x256 .f32) (x1 : Vec Ideal S256x64 .f32) (p : Fin 5000) (q : Fin 64) :
    k0_pay1 x0 x1 (ix2 p q) = ∑ k : Fin 256, x0 (ix2 p k) * x1 (ix2 k q) := by
  unfold k0_pay1
  refine (Ideal.matmul_constant_zero_apply dot_S5000x256_S256x64_S5000x64_1_0_0_1_n_n none _ _ (ix2 p q)).trans ?_
  exact Cert.LibDotSum.sum_dot dot_S5000x256_S256x64_S5000x64_1_0_0_1_n_n rfl rfl (fun _ _ => rfl) (fun _ _ => rfl)
    (fun _ _ => rfl) (fun _ _ => rfl) x0 x1 p q

/-- A tile's product is the same rows of the whole product: if the loaded tile is rows `o … o + 4999` of `X` and the
    loaded weights are `W`, the stored value at `(p, q)` is `(X · W) (o + p, q)`. -/
theorem tile_apply (X : (⟨2, ![100000, 256]⟩ : Shape).Idx → EReal) (W : (⟨2, ![256, 64]⟩ : Shape).Idx → EReal)
    (x0 : Vec Ideal S5000x256 .f32) (x1 : Vec Ideal S256x64 .f32) (p : Fin 5000) (q : Fin 64) (r : Fin 100000)
    (h0 : ∀ k : Fin 256, x0 (ix2 p k) = X (ix2 r k)) (h1 : ∀ k : Fin 256, x1 (ix2 k q) = W (ix2 k q)) :
    k0_pay1 x0 x1 (ix2 p q) = Cert.Gcn.proj X W (ix2 r q) := by
  rw [pay_apply, Cert.Gcn.proj_apply]
  exact Finset.sum_congr rfl fun k _ => by rw [h0 k, h1 k]

/-- The index maps over the grid: the tile of `x` and the tile of the output sit at block row `t`, block column 0; the
    weights' one block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tile of `x` at point `t`, at `(p, k)`: row `5000 t + p` of the array. -/
theorem xblock_apply (c : Dev nD) (t : Fin cfg0.N) (p : Fin 5000) (k : Fin 256) (r : Fin 100000) (hr : r.val = t.val * 5000 + p.val) :
    (iblk0 V c 0 t : Vec Ideal S5000x256 .f32) (ix2 p k) = (V c main_arg0 : (⟨2, ![100000, 256]⟩ : Shape).Idx → EReal) (ix2 r k) := by
  obtain ⟨e0, e1, -⟩ := idx_facts t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weights' block at any point is the whole array. -/
theorem wblock_apply (c : Dev nD) (t : Fin cfg0.N) (k : Fin 256) (q : Fin 64) :
    (iblk0 V c 1 t : Vec Ideal S256x64 .f32) (ix2 k q) = (V c main_arg2 : (⟨2, ![256, 64]⟩ : Shape).Idx → EReal) (ix2 k q) := by
  obtain ⟨-, -, e2, e3, -⟩ := idx_facts t
  unfold iblk0
  rw [View.read_apply]
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 256 + 1 * k.val = k.val; rw [e2]; omega
  | ⟨1, _⟩ => show win0_1.index t (1 : Fin 2) * 64 + 1 * q.val = q.val; rw [e3]; omega

/-- What point `t` writes back is block `t` of the whole product. -/
theorem flushed_eq (c : Dev nD) (t : Fin cfg0.N) :
    (dat0 V c).flushed 2 t = ((cfg0.win 2).blk t).view.read (Elt Ideal)
      (Cert.Gcn.proj (V c main_arg0 : (⟨2, ![100000, 256]⟩ : Shape).Idx → EReal) (V c main_arg2 : (⟨2, ![256, 64]⟩ : Shape).Idx → EReal)) := by
  obtain ⟨-, -, -, -, e4, e5⟩ := idx_facts t
  have hN : cfg0.N = 20 := N_0
  show (cfg0.win 2).cut (grid0.coords t) ((dat0 V c).after 2 t) = _
  rw [after0_2]
  unfold out0_2
  rw [View.canon_unit_zero hz]
  simp only [View.ld_unit_zero (S := S5000x256) hz, View.ld_unit_zero (S := S256x64) hz]
  funext j
  obtain ⟨p, q, rfl⟩ : ∃ (p : Fin 5000) (q : Fin 64), j = ix2 p q := ⟨j 0, j 1, eq_ix2 j⟩
  have ht : t.val < 20 := hN ▸ t.isLt
  have hr : t.val * 5000 + p.val < 100000 := by have := p.isLt; omega
  rw [View.read_apply]
  show k0_pay1 (iblk0 V c 0 t) (iblk0 V c 1 t) (ix2 p q) = Cert.Gcn.proj _ _ (((cfg0.win 2).blk t).view.emb (ix2 p q))
  have hemb : ((cfg0.win 2).blk t).view.emb (ix2 p q) = (ix2 (⟨t.val * 5000 + p.val, hr⟩ : Fin 100000) q : (⟨2, ![100000, 64]⟩ : Shape).Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 64 + 1 * q.val = q.val; rw [e5]; omega
  rw [hemb]
  exact tile_apply _ _ (iblk0 V c 0 t) (iblk0 V c 1 t) p q ⟨t.val * 5000 + p.val, hr⟩
    (fun k => xblock_apply V c t p k _ rfl) (fun k => wblock_apply V c t k q)

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every row is in some tile: row `r` in tile `r / 5000`. -/
theorem cover (i : S100000x64.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- THE ARRAY after the call: the whole product of the two arrays the call read. -/
theorem final (c : Dev nD) : (dat0 V c).arrAt 2 cfg0.N =
    Cert.Gcn.proj (V c main_arg0 : (⟨2, ![100000, 256]⟩ : Shape).Idx → EReal) (V c main_arg2 : (⟨2, ![256, 64]⟩ : Shape).Idx → EReal) :=
  (dat0 V c).arrAt_eq_of_cover 2 _ (fun t _ => flushed_eq V c t) cover

end Cert.KernelIdeal.Project

end
-- ==== Proof.Region1.lean ====
/-
  The second call's output array is the output layer applied to the aggregate it finds.

  The call walks the 100000 rows of the aggregate in 20 tiles of 5000. At tile `t` the body loads rows
  `5000 t … 5000 t + 4999` of the aggregate, the first bias as one row, all of `W2` and the second bias as one row; it
  adds the first bias to every row, takes the maximum with the floor, multiplies by `W2` into a zero accumulator, adds
  the second bias to every row, and stores the 5000 × 64 result, written back as the same rows of the output. Entry
  `(r, q)` of a tile's result is

      (sum over k of  max (a (5000 t + r, k) + b1 (0, k)) z · W2 (k, q))  +  b2 (0, q),

  the same entry of the layer applied to the whole aggregate. The 20 tiles cover every row, so after the last
  write-back the array is the layer of the whole aggregate.

  Everything is stated at the buffer contents `V` the call finds on entry.
-/
import proofs.«123873_j25821343383965_1_alg».proof.Proof.Gen.KernelIdeal.Frame
import proofs.«123873_j25821343383965_1_alg».proof.Proof.LibDotSum
import proofs.«123873_j25821343383965_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Output

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The floor of the rectifier: the number the zero word denotes, left unevaluated. -/
abbrev z : EReal := Ideal.ofBits .f32 0x00000000#32

/-- The body's stored value at `(p, q)`: bias, maximum with the floor, the product with the weights summed over `k`,
    bias (the casts to the same shape and the narrowing to the multiplier's input format are identities). -/
theorem pay_apply (x0 : Vec Ideal S5000x64 .f32) (x1 : Vec Ideal S1x64 .f32) (x2 : Vec Ideal S64x64 .f32) (x3 : Vec Ideal S1x64 .f32)
    (p : Fin 5000) (q : Fin 64) :
    k1_pay1 x0 x1 x2 x3 (ix2 p q)
      = (∑ k : Fin 64, max (x0 (ix2 p k) + x1 (ix2 (0 : Fin 1) k)) z * x2 (ix2 k q)) + x3 (ix2 (0 : Fin 1) q) := by
  unfold k1_pay1
  simp only [shapeCast_self]
  refine (addf_apply _ _ (ix2 p q)).trans (congrArg₂ (· + ·) ?_ ?_)
  · refine (Ideal.matmul_constant_zero_apply dot_S5000x64_S64x64_S5000x64_1_0_0_1_n_n none _ _ (ix2 p q)).trans ?_
    refine (Cert.LibDotSum.sum_dot dot_S5000x64_S64x64_S5000x64_1_0_0_1_n_n rfl rfl (fun _ _ => rfl) (fun _ _ => rfl)
      (fun _ _ => rfl) (fun _ _ => rfl) _ _ p q).trans ?_
    refine Finset.sum_congr rfl fun k _ => ?_
    show max (x0 (ix2 p k) + broadcastTo S5000x64 x1 broadcasts_S1x64_S5000x64 (ix2 p k)) z * x2 (ix2 k q) = _
    rw [broadcastTo_1b_ab_apply]
  · exact broadcastTo_1b_ab_apply x3 _ p q

/-- A tile's result is the same rows of the layer of the whole aggregate. -/
theorem tile_apply (A : (⟨2, ![100000, 64]⟩ : Shape).Idx → EReal) (R1 : (⟨2, ![1, 64]⟩ : Shape).Idx → EReal)
    (W : (⟨2, ![64, 64]⟩ : Shape).Idx → EReal) (R2 : (⟨2, ![1, 64]⟩ : Shape).Idx → EReal)
    (x0 : Vec Ideal S5000x64 .f32) (x1 : Vec Ideal S1x64 .f32) (x2 : Vec Ideal S64x64 .f32) (x3 : Vec Ideal S1x64 .f32)
    (p : Fin 5000) (q : Fin 64) (r : Fin 100000)
    (h0 : ∀ k : Fin 64, x0 (ix2 p k) = A (ix2 r k)) (h1 : ∀ k : Fin 64, x1 (ix2 (0 : Fin 1) k) = R1 (ix2 (0 : Fin 1) k))
    (h2 : ∀ k : Fin 64, x2 (ix2 k q) = W (ix2 k q)) (h3 : x3 (ix2 (0 : Fin 1) q) = R2 (ix2 (0 : Fin 1) q)) :
    k1_pay1 x0 x1 x2 x3 (ix2 p q) = Cert.Gcn.dense z A R1 W R2 (ix2 r q) := by
  rw [pay_apply, Cert.Gcn.dense_apply, h3]
  exact congrArg (· + R2 (ix2 (0 : Fin 1) q)) (Finset.sum_congr rfl fun k _ => by rw [h0 k, h1 k, h2 k])

/-- The index maps over the grid: the aggregate's tile and the output's tile sit at block row `t`, block column 0; the
    two bias rows' and the weights' one block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's tile at point `t`, at `(p, k)`: row `5000 t + p` of the array. -/
theorem ablock_apply (c : Dev nD) (t : Fin cfg1.N) (p : Fin 5000) (k : Fin 64) (r : Fin 100000) (hr : r.val = t.val * 5000 + p.val) :
    (iblk1 V c 0 t : Vec Ideal S5000x64 .f32) (ix2 p k) = (V c main_v45 : (⟨2, ![100000, 64]⟩ : Shape).Idx → EReal) (ix2 r k) := by
  obtain ⟨e0, e1, -⟩ := idx_facts t
  unfold iblk1
  rw [View.read_apply]
  show V c main_v45 (((cfg1.win 0).blk t).view.emb (ix2 p k)) = V c main_v45 (ix2 r k)
  refine congrArg (V c main_v45) (funext fun a => Fin.ext ?_)
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The first bias row's block at any point is the whole row. -/
theorem b1block_apply (c : Dev nD) (t : Fin cfg1.N) (k : Fin 64) :
    (iblk1 V c 1 t : Vec Ideal S1x64 .f32) (ix2 (0 : Fin 1) k) = (V c main_v46 : (⟨2, ![1, 64]⟩ : Shape).Idx → EReal) (ix2 (0 : Fin 1) k) := by
  obtain ⟨-, -, e2, e3, -⟩ := idx_facts t
  unfold iblk1
  rw [View.read_apply]
  show V c main_v46 (((cfg1.win 1).blk t).view.emb (ix2 (0 : Fin 1) k)) = V c main_v46 (ix2 (0 : Fin 1) k)
  refine congrArg (V c main_v46) (funext fun a => Fin.ext ?_)
  match a with
  | ⟨0, _⟩ => show win1_1.index t (0 : Fin 2) * 1 + 1 * 0 = 0; rw [e2]
  | ⟨1, _⟩ => show win1_1.index t (1 : Fin 2) * 64 + 1 * k.val = k.val; rw [e3]; omega

/-- The weights' block at any point is the whole array. -/
theorem wblock_apply (c : Dev nD) (t : Fin cfg1.N) (k : Fin 64) (q : Fin 64) :
    (iblk1 V c 2 t : Vec Ideal S64x64 .f32) (ix2 k q) = (V c main_arg4 : (⟨2, ![64, 64]⟩ : Shape).Idx → EReal) (ix2 k q) := by
  obtain ⟨-, -, -, -, e4, e5, -⟩ := idx_facts t
  unfold iblk1
  rw [View.read_apply]
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 64 + 1 * k.val = k.val; rw [e4]; omega
  | ⟨1, _⟩ => show win1_2.index t (1 : Fin 2) * 64 + 1 * q.val = q.val; rw [e5]; omega

/-- The second bias row's block at any point is the whole row. -/
theorem b2block_apply (c : Dev nD) (t : Fin cfg1.N) (q : Fin 64) :
    (iblk1 V c 3 t : Vec Ideal S1x64 .f32) (ix2 (0 : Fin 1) q) = (V c main_v47 : (⟨2, ![1, 64]⟩ : Shape).Idx → EReal) (ix2 (0 : Fin 1) q) := by
  obtain ⟨-, -, -, -, -, -, e6, e7, -⟩ := idx_facts t
  unfold iblk1
  rw [View.read_apply]
  show V c main_v47 (((cfg1.win 3).blk t).view.emb (ix2 (0 : Fin 1) q)) = V c main_v47 (ix2 (0 : Fin 1) q)
  refine congrArg (V c main_v47) (funext fun a => Fin.ext ?_)
  match a with
  | ⟨0, _⟩ => show win1_3.index t (0 : Fin 2) * 1 + 1 * 0 = 0; rw [e6]
  | ⟨1, _⟩ => show win1_3.index t (1 : Fin 2) * 64 + 1 * q.val = q.val; rw [e7]; omega

/-- What point `t` writes back is block `t` of the layer of the whole aggregate. -/
theorem flushed_eq (c : Dev nD) (t : Fin cfg1.N) :
    (dat1 V c).flushed 4 t = ((cfg1.win 4).blk t).view.read (Elt Ideal)
      (Cert.Gcn.dense z (V c main_v45 : (⟨2, ![100000, 64]⟩ : Shape).Idx → EReal) (V c main_v46 : (⟨2, ![1, 64]⟩ : Shape).Idx → EReal)
        (V c main_arg4 : (⟨2, ![64, 64]⟩ : Shape).Idx → EReal) (V c main_v47 : (⟨2, ![1, 64]⟩ : Shape).Idx → EReal)) := by
  obtain ⟨-, -, -, -, -, -, -, -, e8, e9⟩ := idx_facts t
  have hN : cfg1.N = 20 := N_1
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S64x64) hz]
  funext j
  obtain ⟨p, q, rfl⟩ : ∃ (p : Fin 5000) (q : Fin 64), j = ix2 p q := ⟨j 0, j 1, eq_ix2 j⟩
  have ht : t.val < 20 := hN ▸ t.isLt
  have hr : t.val * 5000 + p.val < 100000 := by have := p.isLt; omega
  rw [View.read_apply]
  show k1_pay1 (iblk1 V c 0 t) (iblk1 V c 1 t) (iblk1 V c 2 t) (iblk1 V c 3 t) (ix2 p q) = Cert.Gcn.dense z _ _ _ _ (((cfg1.win 4).blk t).view.emb (ix2 p q))
  have hemb : ((cfg1.win 4).blk t).view.emb (ix2 p q) = (ix2 (⟨t.val * 5000 + p.val, hr⟩ : Fin 100000) q : (⟨2, ![100000, 64]⟩ : Shape).Idx) := by
    funext a; apply Fin.ext
    match a with
    | ⟨0, _⟩ => show win1_4.index t (0 : Fin 2) * 5000 + 1 * p.val = t.val * 5000 + p.val; rw [e8]; omega
    | ⟨1, _⟩ => show win1_4.index t (1 : Fin 2) * 64 + 1 * q.val = q.val; rw [e9]; omega
  rw [hemb]
  exact tile_apply _ _ _ _ (iblk1 V c 0 t) (iblk1 V c 1 t) (iblk1 V c 2 t) (iblk1 V c 3 t) p q ⟨t.val * 5000 + p.val, hr⟩
    (fun k => ablock_apply V c t p k _ rfl) (fun k => b1block_apply V c t k) (fun k => wblock_apply V c t k q) (b2block_apply V c t q)

/-- An index of the output array is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v48).slice (win1_4.rect t)).set ↔ _
  rw [View.set_slice_whole, Rect.mem_set_unit]
  exact Iff.rfl

/-- Every row is in some tile: row `r` in tile `r / 5000`. -/
theorem cover (i : S100000x64.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 64 := (i 1).isLt
  refine ⟨⟨(i 0).val / 5000, by rw [hN]; omega⟩, flush1_4 _, ?_⟩
  rw [mem_blk]
  obtain ⟨-, -, -, -, -, -, -, -, e8, e9⟩ := idx_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e9]; omega

/-- THE ARRAY after the call: the output layer of the aggregate, the two bias rows and the weights the call read. -/
theorem final (c : Dev nD) : (dat1 V c).arrAt 4 cfg1.N =
    Cert.Gcn.dense z (V c main_v45 : (⟨2, ![100000, 64]⟩ : Shape).Idx → EReal) (V c main_v46 : (⟨2, ![1, 64]⟩ : Shape).Idx → EReal)
      (V c main_arg4 : (⟨2, ![64, 64]⟩ : Shape).Idx → EReal) (V c main_v47 : (⟨2, ![1, 64]⟩ : Shape).Idx → EReal) :=
  (dat1 V c).arrAt_eq_of_cover 4 _ (fun t _ => flushed_eq V c t) cover

end Cert.KernelIdeal.Output

end
-- ==== Proof.Between.lean ====
/-
  What the second call finds: the buffers after the host operations between the two calls.

  Between the calls the program runs, on the host, the graph aggregation of the first call's output (the operations
  that the reference runs on its own product: `Cert.ReferenceIdeal.Hand.agg`), and lays each bias vector out as one
  row. Read from any contents `Wa` at the first call's exit:
    * the aggregate's buffer holds `agg` of `Wa`'s first-call output and `Wa`'s edge list;
    * the two row buffers hold the two bias vectors recast from `[64]` to `[1, 64]`;
    * the second weight matrix is not written.
  The host operations are taken as they stand; none of them is opened.
-/
import proofs.«123873_j25821343383965_1_alg».proof.Proof.Gen.KernelIdeal.Frame
import proofs.«123873_j25821343383965_1_alg».proof.Proof.Aggregate
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]

/-- The three host stretches between the calls, in order, from the contents `Wa`. -/
abbrev through (Wa : Valuation τ sig (Elt F)) : Valuation τ sig (Elt F) :=
  StableHlo.after hostOps1_2 (StableHlo.after hostOps1_1 (StableHlo.after hostOps1 Wa))

set_option maxHeartbeats 4000000 in
/-- The aggregate's buffer: the shared aggregation of the first call's output and the edge list. -/
theorem agg_eq (Wa : Valuation τ sig (Elt F)) :
    through Wa (Proc.devRef .tc main_v45)
      = Cert.ReferenceIdeal.Hand.agg (F := F) (Wa (Proc.devRef .tc main_v0)) (Wa (Proc.devRef .tc main_arg1)) := by
  after_results_simp
  rfl

set_option maxHeartbeats 4000000 in
/-- The first bias as one row. -/
theorem b1row_eq (Wa : Valuation τ sig (Elt F)) :
    through Wa (Proc.devRef .tc main_v46) = shapeCast S1x64 (Wa (Proc.devRef .tc main_arg3)) shapeCasts_S64_S1x64 := by
  after_results_simp
  rfl

set_option maxHeartbeats 4000000 in
/-- The second bias as one row. -/
theorem b2row_eq (Wa : Valuation τ sig (Elt F)) :
    through Wa (Proc.devRef .tc main_v47) = shapeCast S1x64 (Wa (Proc.devRef .tc main_arg5)) shapeCasts_S64_S1x64 := by
  after_results_simp
  rfl

set_option maxHeartbeats 4000000 in
/-- The second weight matrix is as it was. -/
theorem w2_eq (Wa : Valuation τ sig (Elt F)) :
    through Wa (Proc.devRef .tc main_arg4) = Wa (Proc.devRef .tc main_arg4) := by
  after_results_simp

end Cert.KernelIdeal.Between

end
-- ==== Proof.Bridge.lean ====
/-
  The reference's result, index by index: the output layer of the aggregate of the product.

  At the extended reals the host's `dot_general` of an `M × K` by a `K × N` array is the sum over `k` of the products of
  the entries. So the reference's first product is `Cert.Gcn.proj x W1` (`product_eq`), and its last operations — add
  the first bias to every row of an aggregate `a`, take the maximum with the floor, multiply by `W2`, add the second
  bias to every row — are `Cert.Gcn.dense` of `a`, the weights and the two biases as single rows (`layer_eq_dense`,
  for ANY array `a`: the aggregate is a variable there). Together: `result_eq_dense`. The aggregation itself (`agg`)
  is carried as it stands: equal features have equal aggregates.
-/
import proofs.«123873_j25821343383965_1_alg».proof.Proof.Aggregate
import proofs.«123873_j25821343383965_1_alg».proof.Proof.Spec
import proofs.«123873_j25821343383965_1_alg».proof.Proof.LibDotSum
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.ShloMosaic.ValueIdx Idealize.SL.Sem

/-- The floor of the rectifier: the number the zero word denotes, left unevaluated. -/
abbrev z : EReal := Ideal.ofBits .f32 0x00000000#32

/-- The reference's first product is the matrix product. -/
theorem product_eq (x : (⟨2, ![100000, 256]⟩ : Shape).Idx → EReal) (w1 : (⟨2, ![256, 64]⟩ : Shape).Idx → EReal) :
    product (F := Ideal) x w1 = Cert.Gcn.proj x w1 := by
  funext i
  obtain ⟨p, q, rfl⟩ : ∃ (p : Fin 100000) (q : Fin 64), i = ix2 p q := ⟨i 0, i 1, eq_ix2 i⟩
  unfold product
  refine (Ideal.dotGeneral_apply dot_S100000x256_S256x64_S100000x64_1_0_0_1_n_n none .single _ _ (ix2 p q)).trans ?_
  exact Cert.LibDotSum.sum_dot dot_S100000x256_S256x64_S100000x64_1_0_0_1_n_n rfl rfl (fun _ _ => rfl) (fun _ _ => rfl)
    (fun _ _ => rfl) (fun _ _ => rfl) x w1 p q

/-- The reference's output layer on any array `a` is `Cert.Gcn.dense`, the two biases read as single rows `r1`, `r2`
    (any rows whose entries are the biases' entries). -/
theorem layer_eq_dense (a : (⟨2, ![100000, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (r1 r2 : (⟨2, ![1, 64]⟩ : Shape).Idx → EReal)
    (h1 : ∀ k : Fin 64, r1 (ix2 (0 : Fin 1) k) = b1 (ix1 k)) (h2 : ∀ q : Fin 64, r2 (ix2 (0 : Fin 1) q) = b2 (ix1 q)) :
    layer (F := Ideal) a b1 w2 b2 = Cert.Gcn.dense z a r1 w2 r2 := by
  funext i
  obtain ⟨p, q, rfl⟩ : ∃ (p : Fin 100000) (q : Fin 64), i = ix2 p q := ⟨i 0, i 1, eq_ix2 i⟩
  rw [Cert.Gcn.dense_apply]
  unfold layer
  refine (addf_apply _ _ (ix2 p q)).trans (congrArg₂ (· + ·) ?_ ?_)
  · refine (Ideal.dotGeneral_apply dot_S100000x64_S64x64_S100000x64_1_0_0_1_n_n none .single _ _ (ix2 p q)).trans ?_
    refine (Cert.LibDotSum.sum_dot dot_S100000x64_S64x64_S100000x64_1_0_0_1_n_n rfl rfl (fun _ _ => rfl) (fun _ _ => rfl)
      (fun _ _ => rfl) (fun _ _ => rfl) _ w2 p q).trans ?_
    refine Finset.sum_congr rfl fun k _ => ?_
    show max (a (ix2 p k) + biasRows (F := Ideal) b1 (ix2 p k)) z * w2 (ix2 k q) = _
    rw [show biasRows (F := Ideal) b1 (ix2 p k) = b1 (ix1 k) from Cert.LibDotSum.bias_apply b1 _ _ p k, h1 k]
  · exact (Cert.LibDotSum.bias_apply b2 _ _ p q).trans (h2 q).symm

/-- The reference's result is the output layer of the aggregate of the matrix product. -/
theorem result_eq_dense (x : (⟨2, ![100000, 256]⟩ : Shape).Idx → EReal) (e : (⟨S2x1200000, .i32⟩ : BufTy).Contents (Elt Ideal))
    (w1 : (⟨2, ![256, 64]⟩ : Shape).Idx → EReal) (b1 : (⟨1, ![64]⟩ : Shape).Idx → EReal)
    (w2 : (⟨2, ![64, 64]⟩ : Shape).Idx → EReal) (b2 : (⟨1, ![64]⟩ : Shape).Idx → EReal)
    (r1 r2 : (⟨2, ![1, 64]⟩ : Shape).Idx → EReal)
    (h1 : ∀ k : Fin 64, r1 (ix2 (0 : Fin 1) k) = b1 (ix1 k)) (h2 : ∀ q : Fin 64, r2 (ix2 (0 : Fin 1) q) = b2 (ix1 q)) :
    result (F := Ideal) x e w1 b1 w2 b2 = Cert.Gcn.dense z (agg (F := Ideal) (Cert.Gcn.proj x w1) e) r1 w2 r2 :=
  (congrArg (fun h => layer (F := Ideal) (agg (F := Ideal) h e) b1 w2 b2) (product_eq x w1)).trans
    (layer_eq_dense (agg (F := Ideal) (Cert.Gcn.proj x w1) e) b1 w2 b2 r1 r2 h1 h2)

end Cert.ReferenceIdeal.Hand

end
-- ==== Proof.KernelValue.lean ====
/-
  The kernel program's result as a function of its arguments.

  Reading the boundaries of the program's walk back from the end:
    * the result buffer is the second call's output array, which is the output layer (`Cert.Gcn.dense`) of the
      aggregate, the two bias rows and the second weight matrix as that call finds them;
    * what it finds was left by the host operations between the calls: the aggregate is the shared aggregation of the
      first call's output and the edge list, the bias rows are the bias vectors recast as single rows, the weights are
      untouched;
    * the first call's output is the product `x · W1` of the launch contents, and no argument has been written.
  So the result is `dense z (agg (x · W1) e) b1' W2 b2'` with `b1'`, `b2'` the biases as rows — which is the reference's
  result of the same arguments (`Cert.ReferenceIdeal.Hand.result_eq_dense`).
-/
import proofs.«123873_j25821343383965_1_alg».proof.Proof.KernelRun
import proofs.«123873_j25821343383965_1_alg».proof.Proof.Region0
import proofs.«123873_j25821343383965_1_alg».proof.Proof.Region1
import proofs.«123873_j25821343383965_1_alg».proof.Proof.Between
import proofs.«123873_j25821343383965_1_alg».proof.Proof.Bridge
import Idealize.ShloMosaic.Lib.ValueLayout

noncomputable section

namespace Cert.KernelIdeal.Result

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first call its output buffer holds the product of the launch contents of `x` and `W1`. -/
theorem first_output (c : Dev nD) :
    (W1 m ρ c (Proc.devRef .tc main_v0) : (⟨2, ![100000, 64]⟩ : Shape).Idx → EReal)
      = Cert.Gcn.proj (m ((c.tc : Thread nD τ).loc main_arg0) : (⟨2, ![100000, 256]⟩ : Shape).Idx → EReal)
          (m ((c.tc : Thread nD τ).loc main_arg2) : (⟨2, ![256, 64]⟩ : Shape).Idx → EReal) :=
  (W1_arr m ρ c 2).trans (Project.final (V0 m ρ) c)

/-- The aggregate the second call finds. -/
theorem found_agg (c : Dev nD) :
    (V4 m ρ c main_v45 : (⟨2, ![100000, 64]⟩ : Shape).Idx → EReal)
      = Cert.ReferenceIdeal.Hand.agg (F := Ideal)
          (Cert.Gcn.proj (m ((c.tc : Thread nD τ).loc main_arg0) : (⟨2, ![100000, 256]⟩ : Shape).Idx → EReal)
            (m ((c.tc : Thread nD τ).loc main_arg2) : (⟨2, ![256, 64]⟩ : Shape).Idx → EReal))
          (m ((c.tc : Thread nD τ).loc main_arg1)) := by
  refine (Between.agg_eq (W1 m ρ c)).trans ?_
  rw [first_output m ρ c, W1_of_ne m ρ c main_arg1 (by decide)]

/-- The first bias row the second call finds. -/
theorem found_b1 (c : Dev nD) :
    V4 m ρ c main_v46 = shapeCast S1x64 (m ((c.tc : Thread nD τ).loc main_arg3)) shapeCasts_S64_S1x64 := by
  refine (Between.b1row_eq (W1 m ρ c)).trans ?_
  rw [W1_of_ne m ρ c main_arg3 (by decide)]

/-- The second bias row the second call finds. -/
theorem found_b2 (c : Dev nD) :
    V4 m ρ c main_v47 = shapeCast S1x64 (m ((c.tc : Thread nD τ).loc main_arg5)) shapeCasts_S64_S1x64 := by
  refine (Between.b2row_eq (W1 m ρ c)).trans ?_
  rw [W1_of_ne m ρ c main_arg5 (by decide)]

/-- The second weight matrix the second call finds. -/
theorem found_w2 (c : Dev nD) : V4 m ρ c main_arg4 = m ((c.tc : Thread nD τ).loc main_arg4) :=
  (Between.w2_eq (W1 m ρ c)).trans (W1_of_ne m ρ c main_arg4 (by decide))

/-- THE RESULT: the reference's function of the same arguments. -/
theorem value (c : Dev nD) :
    W5 m ρ c (Proc.devRef .tc main_v48)
      = Cert.ReferenceIdeal.Hand.result (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [W5_result, Output.final (V4 m ρ) c, found_agg m ρ c, found_b1 m ρ c, found_w2 m ρ c, found_b2 m ρ c]
  exact (Cert.ReferenceIdeal.Hand.result_eq_dense _ _ _ _ _ _ _ _
    (fun k => shapeCast_a_1a_apply _ _ (0 : Fin 1) k) (fun q => shapeCast_a_1a_apply _ _ (0 : Fin 1) q)).symm

end Cert.KernelIdeal.Result

end
-- ==== Proof.lean ====
/-
  A two-layer graph network, tiled kernel against plain reference, equal over the extended reals.

  Both programs compute, from node features `x` [100000, 256], an edge list `e` [2, 1200000] and two dense layers
  `(W1, b1)`, `(W2, b2)`,

      out = relu (agg (x · W1) e + b1) · W2 + b2,

  where `agg` is the degree-normalised sum over incoming edges and self-loops. The kernel program computes the two
  matrix products in calls tiled over the rows (5000 rows a tile, narrowing the multiplier's inputs to a shorter float
  format first) and runs the aggregation on the host between them with the very operations the reference uses.

  Over the extended reals a change of float format is the identity and a product into a zero accumulator is the plain
  sum of products, so each call's output array is its layer of the whole input array, tile by tile
  (`Project.final`, `Output.final`); the aggregation is the same function on both sides and is never opened; the
  reference's last operations are the output layer index by index (`result_eq_dense`). No law that needs finite
  values is used — only that equal arrays have equal aggregates and equal sums —, so the precondition is not opened.

  The three frames: the two kernel programs' are their generated frame certificates; the reference's is its run with
  the result dropped. The idealization rewrote nothing, so `preserves` is trivial.
-/
import proofs.«123873_j25821343383965_1_alg».proof.Defs
import proofs.«123873_j25821343383965_1_alg».proof.Proof.Gen.Kernel
import proofs.«123873_j25821343383965_1_alg».proof.Proof.Gen.Kernel.Frame
import proofs.«123873_j25821343383965_1_alg».proof.Proof.Gen.KernelIdeal
import proofs.«123873_j25821343383965_1_alg».proof.Proof.Gen.KernelIdeal.Frame
import proofs.«123873_j25821343383965_1_alg».proof.Proof.Gen.ReferenceIdeal
import proofs.«123873_j25821343383965_1_alg».proof.Proof.Gen.Pre_finite_inputs
import proofs.«123873_j25821343383965_1_alg».proof.Proof.RefRun
import proofs.«123873_j25821343383965_1_alg».proof.Proof.Aggregate
import proofs.«123873_j25821343383965_1_alg».proof.Proof.KernelRun
import proofs.«123873_j25821343383965_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at the reference's function of the kernel's arguments: the kernel program's by
    `Result.value`, the reference's by its run, the arguments agreeing. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v48),
    Cert.KernelIdeal.Result.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Hand.result_eq, (hagree c).1, (hagree c).2.1, (hagree c).2.2.1, (hagree c).2.2.2.1,
    (hagree c).2.2.2.2.1, (hagree c).2.2.2.2.2]
  exact (Cert.KernelIdeal.Result.value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
